-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x224x224 : Shape := ⟨4, ![128, 3, 224, 224]⟩
abbrev S768x3x16x16 : Shape := ⟨4, ![768, 3, 16, 16]⟩
abbrev S768 : Shape := ⟨1, ![768]⟩
abbrev S_ : Shape := ⟨0, ![]⟩

class Facts : Prop where
  bcast_S_S128x3x224x224 : S_.BroadcastsInDim S128x3x224x224 (![] : Fin 0 → Fin S128x3x224x224.rank)
  reducesTo_S128x3x224x224_S_d0_1_2_3 : S128x3x224x224.ReducesTo [0, 1, 2, 3] S_
  h_S_ : 0 < S_.numel
  bcast_S_S768x3x16x16 : S_.BroadcastsInDim S768x3x16x16 (![] : Fin 0 → Fin S768x3x16x16.rank)
  reducesTo_S768x3x16x16_S_d0_1_2_3 : S768x3x16x16.ReducesTo [0, 1, 2, 3] S_
  bcast_S_S768 : S_.BroadcastsInDim S768 (![] : Fin 0 → Fin S768.rank)
  reducesTo_S768_S_d0 : S768.ReducesTo [0] S_

variable [Facts]

def fn {F : FTy → Type} [FloatOps F] (main_arg0 : FVec F S128x3x224x224 .f32) (main_arg1 : FVec F S768x3x16x16 .f32) (main_arg2 : FVec F S768 .f32) : IVec S_ 1 :=
  let main_v0 : FVec F S128x3x224x224 .f32 := Host.absf main_arg0
  let main_cst : FVec F S_ .f32 := constant S_ .f32 0x7F800000#32
  let main_v1 : FVec F S128x3x224x224 .f32 := broadcastInDim S128x3x224x224 ![] bcast_S_S128x3x224x224 main_cst
  let main_v2 : IVec S128x3x224x224 1 := cmpf .olt main_v0 main_v1
  let main_c : IVec S_ 1 := constantI S_ 1 1#1
  let main_v3 : IVec S_ 1 := (fun x v => Host.reduce IntOp.andi x v reducesTo_S128x3x224x224_S_d0_1_2_3 h_S_) main_v2 main_c
  let main_v4 : FVec F S768x3x16x16 .f32 := Host.absf main_arg1
  let main_cst_0 : FVec F S_ .f32 := constant S_ .f32 0x7F800000#32
  let main_v5 : FVec F S768x3x16x16 .f32 := broadcastInDim S768x3x16x16 ![] bcast_S_S768x3x16x16 main_cst_0
  let main_v6 : IVec S768x3x16x16 1 := cmpf .olt main_v4 main_v5
  let main_c_1 : IVec S_ 1 := constantI S_ 1 1#1
  let main_v7 : IVec S_ 1 := (fun x v => Host.reduce IntOp.andi x v reducesTo_S768x3x16x16_S_d0_1_2_3 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S128x3x224x224 : Shape := ⟨4, ![128, 3, 224, 224]⟩
abbrev S768x3x16x16 : Shape := ⟨4, ![768, 3, 16, 16]⟩
abbrev S768 : Shape := ⟨1, ![768]⟩
abbrev S128x3x14x16x14x16 : Shape := ⟨6, ![128, 3, 14, 16, 14, 16]⟩
abbrev S128x3x16x16x14x14 : Shape := ⟨6, ![128, 3, 16, 16, 14, 14]⟩
abbrev S128x768x196 : Shape := ⟨3, ![128, 768, 196]⟩
abbrev S_ : Shape := ⟨0, ![]⟩
abbrev S128x768x256 : Shape := ⟨3, ![128, 768, 256]⟩
abbrev S768x768 : Shape := ⟨2, ![768, 768]⟩
abbrev S768x1 : Shape := ⟨2, ![768, 1]⟩
abbrev S16x768x256 : Shape := ⟨3, ![16, 768, 256]⟩
abbrev S1x768x256 : Shape := ⟨3, ![1, 768, 256]⟩
abbrev S768x256 : Shape := ⟨2, ![768, 256]⟩
abbrev S128x768x14x14 : Shape := ⟨4, ![128, 768, 14, 14]⟩

abbrev nBuf : Space → Nat
  | .hbm => 16
  | .vmem => 6
  | .smem => 0
  | _ => 0

abbrev bufTy : (tb : Table) → Fin (tcTables nBuf tb) → BufTy
  | .hbm, ⟨0, _⟩ => ⟨S128x3x224x224, .f32⟩
  | .hbm, ⟨1, _⟩ => ⟨S768x3x16x16, .f32⟩
  | .hbm, ⟨2, _⟩ => ⟨S768, .f32⟩
  | .hbm, ⟨3, _⟩ => ⟨S128x3x14x16x14x16, .f32⟩
  | .hbm, ⟨4, _⟩ => ⟨S128x3x16x16x14x14, .f32⟩
  | .hbm, ⟨5, _⟩ => ⟨S128x768x196, .f32⟩
  | .hbm, ⟨6, _⟩ => ⟨S128x768x196, .bf16⟩
  | .hbm, ⟨7, _⟩ => ⟨S_, .i32⟩
  | .hbm, ⟨8, _⟩ => ⟨S_, .bf16⟩
  | .hbm, ⟨9, _⟩ => ⟨S128x768x256, .bf16⟩
  | .hbm, ⟨10, _⟩ => ⟨S768x768, .f32⟩
  | .hbm, ⟨11, _⟩ => ⟨S768x768, .bf16⟩
  | .hbm, ⟨12, _⟩ => ⟨S768x1, .f32⟩
  | .hbm, ⟨13, _⟩ => ⟨S128x768x256, .f32⟩
  | .hbm, ⟨14, _⟩ => ⟨S128x768x196, .f32⟩
  | .hbm, ⟨15, _⟩ => ⟨S128x768x14x14, .f32⟩
  | .local _ .vmem, ⟨0, _⟩ => ⟨S768x768, .bf16⟩
  | .local _ .vmem, ⟨1, _⟩ => ⟨S16x768x256, .bf16⟩
  | .local _ .vmem, ⟨2, _⟩ => ⟨S16x768x256, .bf16⟩
  | .local _ .vmem, ⟨3, _⟩ => ⟨S768x1, .f32⟩
  | .local _ .vmem, ⟨4, _⟩ => ⟨S16x768x256, .f32⟩
  | .local _ .vmem, ⟨5, _⟩ => ⟨S16x768x256, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S768x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x3x224x224_S128x3x14x16x14x16 : S128x3x224x224.ShapeCasts S128x3x14x16x14x16
  transposes_S128x3x14x16x14x16_S128x3x16x16x14x14_0_1_3_5_2_4 : S128x3x14x16x14x16.Transposes [0, 1, 3, 5, 2, 4] S128x3x16x16x14x14
  shapeCasts_S128x3x16x16x14x14_S128x768x196 : S128x3x16x16x14x14.ShapeCasts S128x768x196
  bitsLt_bf16_f32 : FTy.bits .bf16 < FTy.bits .f32
  pads_S128x768x196_S128x768x256_000_000_0600 : S128x768x196.Pads (![0, 0, 0] : Fin 3 → Nat) ![0, 0, 60] ![0, 0, 0] S128x768x256
  h_S_ : 0 < S_.numel
  shapeCasts_S768x3x16x16_S768x768 : S768x3x16x16.ShapeCasts S768x768
  shapeCasts_S768_S768x1 : S768.ShapeCasts S768x1
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768x1_S768x1_0_0 : ∀ a, (![0, 0] : Fin 2 → Nat) a + S768x1.size a ≤ S768x1.size a
  h_S768x1 : 0 < S768x1.numel
  shapeCasts_S768x1_S768x1 : S768x1.ShapeCasts S768x1
  inb_S16x768x256_S1x768x256_0_0_0 : ∀ a, (![0, 0, 0] : Fin 3 → Nat) a + S1x768x256.size a ≤ S16x768x256.size a
  h_S1x768x256 : 0 < S1x768x256.numel
  shapeCasts_S1x768x256_S768x256 : S1x768x256.ShapeCasts S768x256
  broadcasts_S768x1_S768x256 : S768x1.Broadcasts S768x256
  shapeCasts_S768x256_S1x768x256 : S768x256.ShapeCasts S1x768x256
  inb_S16x768x256_S1x768x256_1_0_0 : ∀ a, (![1, 0, 0] : Fin 3 → Nat) a + S1x768x256.size a ≤ S16x768x256.size a
  inb_S16x768x256_S1x768x256_2_0_0 : ∀ a, (![2, 0, 0] : Fin 3 → Nat) a + S1x768x256.size a ≤ S16x768x256.size a
  inb_S16x768x256_S1x768x256_3_0_0 : ∀ a, (![3, 0, 0] : Fin 3 → Nat) a + S1x768x256.size a ≤ S16x768x256.size a
  inb_S16x768x256_S1x768x256_4_0_0 : ∀ a, (![4, 0, 0] : Fin 3 → Nat) a + S1x768x256.size a ≤ S16x768x256.size a
  inb_S16x768x256_S1x768x256_5_0_0 : ∀ a, (![5, 0, 0] : Fin 3 → Nat) a + S1x768x256.size a ≤ S16x768x256.size a
  inb_S16x768x256_S1x768x256_6_0_0 : ∀ a, (![6, 0, 0] : Fin 3 → Nat) a + S1x768x256.size a ≤ S16x768x256.size a
  inb_S16x768x256_S1x768x256_7_0_0 : ∀ a, (![7, 0, 0] : Fin 3 → Nat) a + S1x768x256.size a ≤ S16x768x256.size a
  inb_S16x768x256_S1x768x256_8_0_0 : ∀ a, (![8, 0, 0] : Fin 3 → Nat) a + S1x768x256.size a ≤ S16x768x256.size a
  inb_S16x768x256_S1x768x256_9_0_0 : ∀ a, (![9, 0, 0] : Fin 3 → Nat) a + S1x768x256.size a ≤ S16x768x256.size a
  inb_S16x768x256_S1x768x256_10_0_0 : ∀ a, (![10, 0, 0] : Fin 3 → Nat) a + S1x768x256.size a ≤ S16x768x256.size a
  inb_S16x768x256_S1x768x256_11_0_0 : ∀ a, (![11, 0, 0] : Fin 3 → Nat) a + S1x768x256.size a ≤ S16x768x256.size a
  inb_S16x768x256_S1x768x256_12_0_0 : ∀ a, (![12, 0, 0] : Fin 3 → Nat) a + S1x768x256.size a ≤ S16x768x256.size a
  inb_S16x768x256_S1x768x256_13_0_0 : ∀ a, (![13, 0, 0] : Fin 3 → Nat) a + S1x768x256.size a ≤ S16x768x256.size a
  inb_S16x768x256_S1x768x256_14_0_0 : ∀ a, (![14, 0, 0] : Fin 3 → Nat) a + S1x768x256.size a ≤ S16x768x256.size a
  inb_S16x768x256_S1x768x256_15_0_0 : ∀ a, (![15, 0, 0] : Fin 3 → Nat) a + S1x768x256.size a ≤ S16x768x256.size a
  slices_S128x768x256_S128x768x196_0_0_0 : S128x768x256.Slices ![0, 0, 0] S128x768x196
  shapeCasts_S128x768x196_S128x768x14x14 : S128x768x196.ShapeCasts S128x768x14x14
  dot_S768x768_S768x256_S768x256_1_0_0_1_n_n_wf : DotDims.WF S768x768 S768x256 S768x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S768x768.size a ≤ S768x768.size a
  hwx0_0 : ∀ i : grid0.Coords, EltTy.bits .bf16 = 32 ∨ (Rect.block (s := S768x768) S768x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x768x256.size a ≤ S128x768x256.size a
  hwx0_1 : ∀ i : grid0.Coords, EltTy.bits .bf16 = 32 ∨ (Rect.block (s := S128x768x256) S16x768x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1.size a ≤ S768x1.size a
  hwx0_2 : ∀ i : grid0.Coords, EltTy.bits .f32 = 32 ∨ (Rect.block (s := S768x1) S768x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x768x256.size a ≤ S128x768x256.size a
  hwx0_3 : ∀ i : grid0.Coords, EltTy.bits .f32 = 32 ∨ (Rect.block (s := S128x768x256) S16x768x256.size (cc0_transform_3 i) (hinb0_3 i)).WholeWords (EltTy.packing .f32)

variable [Facts₀]

def dot_S768x768_S768x256_S768x256_1_0_0_1_n_n : DotDims S768x768 S768x256 S768x256 where
  lhsContracting := [1]
  rhsContracting := [0]
  lhsNonContracting := [0]
  rhsNonContracting := [1]
  lhsBatch := []
  rhsBatch := []
  wf := dot_S768x768_S768x256_S768x256_1_0_0_1_n_n_wf

abbrev win0_0 : Pipeline.Window sig grid0 :=
  Pipeline.Window.ofSpec (Memref.whole main_v6) S768x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x768x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S768x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16x768x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x3x224x224 : Shape := ⟨4, ![128, 3, 224, 224]⟩
abbrev S768x3x16x16 : Shape := ⟨4, ![768, 3, 16, 16]⟩
abbrev S768 : Shape := ⟨1, ![768]⟩
abbrev S128x3x14x16x14x16 : Shape := ⟨6, ![128, 3, 14, 16, 14, 16]⟩
abbrev S128x3x16x16x14x14 : Shape := ⟨6, ![128, 3, 16, 16, 14, 14]⟩
abbrev S128x768x196 : Shape := ⟨3, ![128, 768, 196]⟩
abbrev S_ : Shape := ⟨0, ![]⟩
abbrev S128x768x256 : Shape := ⟨3, ![128, 768, 256]⟩
abbrev S768x768 : Shape := ⟨2, ![768, 768]⟩
abbrev S768x1 : Shape := ⟨2, ![768, 1]⟩
abbrev S1x768x256 : Shape := ⟨3, ![1, 768, 256]⟩
abbrev S768x256 : Shape := ⟨2, ![768, 256]⟩
abbrev S128x768x14x14 : Shape := ⟨4, ![128, 768, 14, 14]⟩

abbrev nBuf : Space → Nat
  | .hbm => 14
  | .vmem => 6
  | .smem => 0
  | _ => 0

abbrev bufTy : (tb : Table) → Fin (tcTables nBuf tb) → BufTy
  | .hbm, ⟨0, _⟩ => ⟨S128x3x224x224, .f32⟩
  | .hbm, ⟨1, _⟩ => ⟨S768x3x16x16, .f32⟩
  | .hbm, ⟨2, _⟩ => ⟨S768, .f32⟩
  | .hbm, ⟨3, _⟩ => ⟨S128x3x14x16x14x16, .f32⟩
  | .hbm, ⟨4, _⟩ => ⟨S128x3x16x16x14x14, .f32⟩
  | .hbm, ⟨5, _⟩ => ⟨S128x768x196, .f32⟩
  | .hbm, ⟨6, _⟩ => ⟨S_, .i32⟩
  | .hbm, ⟨7, _⟩ => ⟨S_, .f32⟩
  | .hbm, ⟨8, _⟩ => ⟨S128x768x256, .f32⟩
  | .hbm, ⟨9, _⟩ => ⟨S768x768, .f32⟩
  | .hbm, ⟨10, _⟩ => ⟨S768x1, .f32⟩
  | .hbm, ⟨11, _⟩ => ⟨S128x768x256, .f32⟩
  | .hbm, ⟨12, _⟩ => ⟨S128x768x196, .f32⟩
  | .hbm, ⟨13, _⟩ => ⟨S128x768x14x14, .f32⟩
  | .local _ .vmem, ⟨0, _⟩ => ⟨S768x768, .f32⟩
  | .local _ .vmem, ⟨1, _⟩ => ⟨S1x768x256, .f32⟩
  | .local _ .vmem, ⟨2, _⟩ => ⟨S1x768x256, .f32⟩
  | .local _ .vmem, ⟨3, _⟩ => ⟨S768x1, .f32⟩
  | .local _ .vmem, ⟨4, _⟩ => ⟨S1x768x256, .f32⟩
  | .local _ .vmem, ⟨5, _⟩ => ⟨S1x768x256, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S128x3x224x224_S128x3x14x16x14x16 : S128x3x224x224.ShapeCasts S128x3x14x16x14x16
  transposes_S128x3x14x16x14x16_S128x3x16x16x14x14_0_1_3_5_2_4 : S128x3x14x16x14x16.Transposes [0, 1, 3, 5, 2, 4] S128x3x16x16x14x14
  shapeCasts_S128x3x16x16x14x14_S128x768x196 : S128x3x16x16x14x14.ShapeCasts S128x768x196
  pads_S128x768x196_S128x768x256_000_000_0600 : S128x768x196.Pads (![0, 0, 0] : Fin 3 → Nat) ![0, 0, 60] ![0, 0, 0] S128x768x256
  h_S_ : 0 < S_.numel
  shapeCasts_S768x3x16x16_S768x768 : S768x3x16x16.ShapeCasts S768x768
  shapeCasts_S768_S768x1 : S768.ShapeCasts S768x1
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768x256_S1x768x256_0_0_0 : ∀ a, (![0, 0, 0] : Fin 3 → Nat) a + S1x768x256.size a ≤ S1x768x256.size a
  h_S1x768x256 : 0 < S1x768x256.numel
  shapeCasts_S1x768x256_S768x256 : S1x768x256.ShapeCasts S768x256
  inb_S768x1_S768x1_0_0 : ∀ a, (![0, 0] : Fin 2 → Nat) a + S768x1.size a ≤ S768x1.size a
  h_S768x1 : 0 < S768x1.numel
  shapeCasts_S768x1_S768x1 : S768x1.ShapeCasts S768x1
  broadcasts_S768x1_S768x256 : S768x1.Broadcasts S768x256
  shapeCasts_S768x256_S1x768x256 : S768x256.ShapeCasts S1x768x256
  slices_S128x768x256_S128x768x196_0_0_0 : S128x768x256.Slices ![0, 0, 0] S128x768x196
  shapeCasts_S128x768x196_S128x768x14x14 : S128x768x196.ShapeCasts S128x768x14x14
  dot_S768x768_S768x256_S768x256_1_0_0_1_n_n_wf : DotDims.WF S768x768 S768x256 S768x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S768x768.size a ≤ S768x768.size a
  hwx0_0 : ∀ i : grid0.Coords, EltTy.bits .f32 = 32 ∨ (Rect.block (s := S768x768) S768x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x256.size a ≤ S128x768x256.size a
  hwx0_1 : ∀ i : grid0.Coords, EltTy.bits .f32 = 32 ∨ (Rect.block (s := S128x768x256) S1x768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1.size a ≤ S768x1.size a
  hwx0_2 : ∀ i : grid0.Coords, EltTy.bits .f32 = 32 ∨ (Rect.block (s := S768x1) S768x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x256.size a ≤ S128x768x256.size a
  hwx0_3 : ∀ i : grid0.Coords, EltTy.bits .f32 = 32 ∨ (Rect.block (s := S128x768x256) S1x768x256.size (cc0_transform_3 i) (hinb0_3 i)).WholeWords (EltTy.packing .f32)

variable [Facts₀]

def dot_S768x768_S768x256_S768x256_1_0_0_1_n_n : DotDims S768x768 S768x256 S768x256 where
  lhsContracting := [1]
  rhsContracting := [0]
  lhsNonContracting := [0]
  rhsNonContracting := [1]
  lhsBatch := []
  rhsBatch := []
  wf := dot_S768x768_S768x256_S768x256_1_0_0_1_n_n_wf

abbrev win0_0 : Pipeline.Window sig grid0 :=
  Pipeline.Window.ofSpec (Memref.whole main_v4) S768x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x768x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S768x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x768x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.PatchImage.lean ====
/-
  The function both programs compute, stated once over the extended reals.

  A 16×16, stride-16 convolution of a [128, 3, 224, 224] input is, per image, one matrix product: the weights laid
  out as a [768, 768] matrix (output channel × (input channel, row in patch, column in patch)) times the image's
  patches laid out as a [768, 196] matrix ((input channel, row in patch, column in patch) × patch position), the bias
  added down each column and the result clamped below at zero. Both programs pad the patch-position axis from 196 to
  256 with zeros before the product and cut it back to 196 after it, so the padded columns never reach the result.

  Here: the per-image map `image`, the same map on a [1, 768, 256] slab (`slabOut`), the whole batch (`batch`: image
  `n` of the output is `image` of image `n` of the patches), the layout steps before the product (`weights`, `patches`,
  `biasCol`) and after it (`unpad`), and their composite `answer`.
-/
import Idealize.ShloMosaic.PureOps.Ideal
import Idealize.ShloMosaic.Lib.ValueIdx

noncomputable section

namespace Cert.PatchEmbed

open Idealize.ShloMosaic Idealize.ShloMosaic.ValueIdx

/-! ## Shapes -/

/-- The input batch: image, channel, row, column. -/
abbrev SX : Shape := ⟨4, ![128, 3, 224, 224]⟩
/-- Rows and columns split into (patch, offset inside the patch). -/
abbrev SX6 : Shape := ⟨6, ![128, 3, 14, 16, 14, 16]⟩
/-- The offsets inside the patch moved in front of the patch positions. -/
abbrev SX6t : Shape := ⟨6, ![128, 3, 16, 16, 14, 14]⟩
/-- Per image a [768, 196] patch matrix. -/
abbrev SP196 : Shape := ⟨3, ![128, 768, 196]⟩
/-- The same with the patch-position axis padded to 256. -/
abbrev SA : Shape := ⟨3, ![128, 768, 256]⟩
/-- The convolution's weights. -/
abbrev SWt : Shape := ⟨4, ![768, 3, 16, 16]⟩
/-- The weights as a matrix. -/
abbrev SW : Shape := ⟨2, ![768, 768]⟩
/-- The bias. -/
abbrev Sb : Shape := ⟨1, ![768]⟩
/-- The bias as a column. -/
abbrev SB : Shape := ⟨2, ![768, 1]⟩
/-- One image's slab of the padded batch. -/
abbrev S1 : Shape := ⟨3, ![1, 768, 256]⟩
/-- One image's padded patch matrix, and its product with the weights. -/
abbrev SP : Shape := ⟨2, ![768, 256]⟩
/-- The result: image, output channel, patch row, patch column. -/
abbrev SO : Shape := ⟨4, ![128, 768, 14, 14]⟩
/-- A scalar. -/
abbrev S0 : Shape := ⟨0, ![]⟩

/-! ## One image -/

/-- The product contracts the weights' second axis with the patch matrix's first. -/
def dims : DotDims SW SP SP where
  lhsContracting := [1]
  rhsContracting := [0]
  lhsNonContracting := [0]
  rhsNonContracting := [1]
  lhsBatch := []
  rhsBatch := []
  wf := by decide

/-- One image: `max (W · p + b, 0)`, the bias `b` a column added to every column of the product. -/
def image (W : SW.Idx → EReal) (p : SP.Idx → EReal) (b : SB.Idx → EReal) : SP.Idx → EReal :=
  maximumf (F := Ideal) (φ := .f32)
    (addf (matmul (F := Ideal) (φ₁ := .f32) (φ₂ := .f32) dims none W p (constant SP .f32 0x00000000#32))
      (broadcastTo SP b (by decide)))
    (broadcast SP (Scalar.ofBits (F := Ideal) .f32 0x00000000#32))

/-- The same on a [1, 768, 256] slab: drop the unit axis, apply `image`, put the unit axis back. -/
def slabOut (W : SW.Idx → EReal) (s : S1.Idx → EReal) (b : SB.Idx → EReal) : S1.Idx → EReal :=
  shapeCast S1 (image W (shapeCast SP s (by decide)) b) (by decide)

/-! ## The batch -/

/-- Image `n` of a padded batch, as a slab. -/
def imageOf (P : SA.Idx → EReal) (n : Fin 128) : S1.Idx → EReal :=
  fun z => P (ix3 n (z 1 : Fin 768) (z 2 : Fin 256))

/-- The whole batch: entry `(n, o, q)` of the output is entry `(o, q)` of `image` of image `n`. -/
def batch (W : SW.Idx → EReal) (P : SA.Idx → EReal) (b : SB.Idx → EReal) : SA.Idx → EReal :=
  fun j => slabOut W (imageOf P (j 0 : Fin 128)) b (ix3 (0 : Fin 1) (j 1 : Fin 768) (j 2 : Fin 256))

/-! ## The layout steps around the product -/

/-- The weights as a [768, 768] matrix (row-major regrouping). -/
def weights (w : SWt.Idx → EReal) : SW.Idx → EReal := shapeCast SW w (by decide)

/-- The bias as a column. -/
def biasCol (b : Sb.Idx → EReal) : SB.Idx → EReal := shapeCast SB b (by decide)

/-- The patches: split rows and columns into (patch, offset), move the offsets in front, regroup to
    [128, 768, 196], and pad the last axis with 60 zeros. -/
def patches (x : SX.Idx → EReal) : SA.Idx → EReal :=
  pad SA ![0, 0, 0] ![0, 0, 60] ![0, 0, 0]
    (shapeCast SP196 (transpose SX6t [0, 1, 3, 5, 2, 4] (shapeCast SX6 x (by decide)) (by decide)) (by decide))
    (sitofp (F := Ideal) .f32 (constantI S0 32 0#32)) (by decide) (by decide)

/-- Cut the padded columns off and regroup the 196 patch positions as 14 × 14. -/
def unpad (o : SA.Idx → EReal) : SO.Idx → EReal :=
  shapeCast SO (extractStridedSlice SP196 ![0, 0, 0] o (by decide)) (by decide)

/-- The patch embedding of `x` under weights `w` and bias `b`. -/
def answer (x : SX.Idx → EReal) (w : SWt.Idx → EReal) (b : Sb.Idx → EReal) : SO.Idx → EReal :=
  unpad (batch (weights w) (patches x) (biasCol b))

end Cert.PatchEmbed

end
-- ==== Proof.KernelRegion.lean ====
/-
  The kernel's region: what its output array holds after the run.

  The grid has 8 points, 16 images each. At a point the body loads the whole weight matrix and the whole bias column
  once, then for each of the 16 images of the point's block loads the image's [1, 768, 256] slab of the padded patches
  and stores the per-image map of the three into the same slab of the output block. The 16 stores tile the block, each
  the restriction of one function of the block index (`blockOut`), so the block written back at point `t` is block `t`
  of `batch`; the 8 blocks tile the output array, which ends holding `batch` of the three arrays the region was
  launched on.
-/
import proofs.«180209_g2000007024312984_pallasbulk_809_25_alg».proof.Proof.Gen.KernelIdeal.Frame
import proofs.«180209_g2000007024312984_pallasbulk_809_25_alg».proof.Proof.PatchImage
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.PatchEmbed

variable (m : (ℓ : Loc nD τ sig) → Buf (Elt Ideal) ℓ) (ρ : Dev nD → PrngReg)

theorem zero2 : (![0, 0] : Fin 2 → Nat) = fun _ => 0 := funext fun a => by fin_cases a <;> rfl

/-! ## One point's block -/

/-- What a point leaves in its [16, 768, 256] output block, as one function of the block index: entry `(i, o, q)` is
    entry `(o, q)` of the per-image map of image `i` of the point's patch block. -/
def blockOut (W : S768x768.Idx → EReal) (X : S16x768x256.Idx → EReal) (B : S768x1.Idx → EReal) :
    S16x768x256.Idx → EReal :=
  fun y => slabOut W (fun z => X (ix3 (y 0 : Fin 16) (z 1 : Fin 768) (z 2 : Fin 256))) B
    (ix3 (0 : Fin 1) (y 1 : Fin 768) (y 2 : Fin 256))

/-- A store of the per-image map of the slab loaded through a [1, 768, 256] rectangle at image offset `off 0` (and
    offset zero on the other two axes), through the same rectangle, is `blockOut` restricted to the rectangle. -/
theorem piece_eq (off : Fin 3 → Nat) (inb : ∀ a, off a + S1x768x256.size a ≤ S16x768x256.size a)
    (h1 : off 1 = 0) (h2 : off 2 = 0)
    (W : Vec Ideal S768x768 .bf16) (X : Vec Ideal S16x768x256 .bf16) (B : Vec Ideal S768x1 .f32) (x : S1x768x256.Idx) :
    slabOut W (View.ld X (Rect.unit (s := S16x768x256) off S1x768x256.size inb)) B x
      = blockOut W X B ((Rect.unit (s := S16x768x256) off S1x768x256.size inb).emb x) := by
  unfold blockOut
  have hx : (x 0).val < 1 := (x 0).isLt
  have hs : View.ld X (Rect.unit (s := S16x768x256) off S1x768x256.size inb)
      = fun z : S1x768x256.Idx => X (ix3 (((Rect.unit (s := S16x768x256) off S1x768x256.size inb).emb x) 0 : Fin 16) (z 1 : Fin 768) (z 2 : Fin 256)) := by
    funext z
    have hz : (z 0).val < 1 := (z 0).isLt
    show X _ = X _
    congr 1
    funext a
    apply Fin.ext
    match a with
    | ⟨0, _⟩ => show off 0 + 1 * (z 0).val = off 0 + 1 * (x 0).val; omega
    | ⟨1, _⟩ => show off 1 + 1 * (z 1).val = (z 1).val; omega
    | ⟨2, _⟩ => show off 2 + 1 * (z 2).val = (z 2).val; omega
  have hi : x = ix3 (0 : Fin 1) (((Rect.unit (s := S16x768x256) off S1x768x256.size inb).emb x) 1 : Fin 768)
      (((Rect.unit (s := S16x768x256) off S1x768x256.size inb).emb x) 2 : Fin 256) := by
    funext a
    apply Fin.ext
    match a with
    | ⟨0, _⟩ => show (x 0).val = 0; omega
    | ⟨1, _⟩ => show (x 1).val = off 1 + 1 * (x 1).val; omega
    | ⟨2, _⟩ => show (x 2).val = off 2 + 1 * (x 2).val; omega
  exact congr (congrArg (fun s => slabOut W s B) hs) hi

/-! The sixteen stores of the body are each the per-image map of the slab loaded for it, of the weights and of the
bias. The body's text is cut into windows by length, so the one term appears under several payload names and some
of its pieces (the weights and the bias after a shape cast to their own shape, a slab with its unit axis dropped, a
result before its unit axis is put back) under names of their own. -/

/-- Unfold the payload names and the per-image map, and drop the shape casts of a value to its own shape: the two
    sides are then one term. -/
local macro "open_payload" : tactic =>
  `(tactic| (simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, slabOut, image, shapeCast_self]; rfl))

variable (v0 : Vec Ideal S768x768 .bf16) (v2 : Vec Ideal S768x1 .f32) (v : Vec Ideal S1x768x256 .bf16)

theorem pay4_eq : k0_pay4 v0 v2 v = slabOut v0 v v2 := by open_payload
theorem pay5_eq : k0_pay5 v0 v2 v = slabOut v0 v v2 := by open_payload
theorem pay7_eq : k0_pay7 (k0_pay6 v0 v2 v) = slabOut v0 v v2 := by open_payload
theorem pay8_eq : k0_pay8 (k0_pay2 v0) (k0_pay3 v2) v = slabOut v0 v v2 := by open_payload
theorem pay9_eq : k0_pay9 (k0_pay2 v0) (k0_pay3 v2) v = slabOut v0 v v2 := by open_payload
theorem pay11_eq : k0_pay11 (k0_pay10 (k0_pay2 v0) (k0_pay3 v2) v) = slabOut v0 v v2 := by open_payload
theorem pay12_eq : k0_pay12 (k0_pay2 v0) (k0_pay3 v2) v = slabOut v0 v v2 := by open_payload
theorem pay13_eq : k0_pay13 (k0_pay2 v0) (k0_pay3 v2) v = slabOut v0 v v2 := by open_payload
theorem pay14_eq : k0_pay14 (k0_pay2 v0) (k0_pay3 v2) v = slabOut v0 v v2 := by open_payload
theorem pay15_eq : k0_pay15 (k0_pay2 v0) (k0_pay3 v2) v = slabOut v0 v v2 := by open_payload
theorem pay16_eq : k0_pay16 (k0_pay2 v0) (k0_pay3 v2) v = slabOut v0 v v2 := by open_payload
theorem pay17_eq : k0_pay17 (k0_pay2 v0) (k0_pay3 v2) v = slabOut v0 v v2 := by open_payload
theorem pay18_eq : k0_pay18 (k0_pay2 v0) (k0_pay3 v2) v = slabOut v0 v v2 := by open_payload
theorem pay19_eq : k0_pay19 (k0_pay2 v0) (k0_pay3 v2) v = slabOut v0 v v2 := by open_payload
theorem pay20_eq : k0_pay20 (k0_pay2 v0) (k0_pay3 v2) v = slabOut v0 v v2 := by open_payload
theorem pay1_eq : k0_pay1 (k0_pay2 v0) (k0_pay3 v2) (k0_pay21 v) (constant S768x256 .f32 0x00000000#32) = slabOut v0 v v2 := by open_payload

/-- What the body leaves in the output block: `blockOut` of the three input blocks. The sixteen stores are each
    `blockOut` restricted to the store's rectangle, and together they cover the block. -/
theorem out_eq (x0 : Vec Ideal S768x768 .bf16) (x1 : Vec Ideal S16x768x256 .bf16) (x2 : Vec Ideal S768x1 .f32) :
    out0_3 x0 x1 x2 = blockOut x0 x1 x2 := by
  funext y
  unfold out0_3
  simp only [View.ld_unit_zero (S := S768x768) zero2, View.ld_unit_zero (S := S768x1) zero2]
  rw [pay1_eq, pay20_eq, pay19_eq, pay18_eq, pay17_eq, pay16_eq, pay15_eq, pay14_eq, pay13_eq, pay12_eq, pay11_eq,
    pay9_eq, pay8_eq, pay7_eq, pay5_eq, pay4_eq]
  refine View.canon_apply_of_pieces (Val := Elt Ideal) (S := S16x768x256) (e := .f32) (blockOut x0 x1 x2) _ ?_ y (cover0_3 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  all_goals exact fun x => piece_eq _ _ rfl rfl x0 x1 x2 x

/-! ## The grid -/

/-- The grid point as the number of its first image's block. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The weights' block is the whole matrix. -/
theorem iblk_weights (c : Dev nD) (t : Fin cfg0.N) :
    (iblk m c 0 t : Vec Ideal S768x768 .bf16) = V m c main_v6 := by
  obtain ⟨e0, e1, -⟩ := idx_facts t
  funext x
  unfold iblk
  rw [View.read_apply]
  show V m c main_v6 _ = V m c main_v6 x
  congr 1
  funext a
  apply Fin.ext
  match a with
  | ⟨0, _⟩ => show win0_0.index t (0 : Fin 2) * 768 + 1 * (x 0).val = (x 0).val; omega
  | ⟨1, _⟩ => show win0_0.index t (1 : Fin 2) * 768 + 1 * (x 1).val = (x 1).val; omega

/-- The bias's block is the whole column. -/
theorem iblk_bias (c : Dev nD) (t : Fin cfg0.N) :
    (iblk m c 2 t : Vec Ideal S768x1 .f32) = V m c main_v7 := by
  obtain ⟨-, -, -, -, -, e0, e1, -⟩ := idx_facts t
  funext x
  unfold iblk
  rw [View.read_apply]
  show V m c main_v7 _ = V m c main_v7 x
  congr 1
  funext a
  apply Fin.ext
  match a with
  | ⟨0, _⟩ => show win0_2.index t (0 : Fin 2) * 768 + 1 * (x 0).val = (x 0).val; omega
  | ⟨1, _⟩ => show win0_2.index t (1 : Fin 2) * 1 + 1 * (x 1).val = (x 1).val; omega

/-- What point `t` writes back is block `t` of `batch` of the arrays the region was launched on: the patches' block
    and the output's block sit at the same sixteen images. -/
theorem flushed_eq (c : Dev nD) (t : Fin cfg0.N) :
    (dats m 0 c).flushed 3 t
      = ((cfg0.win 3).blk t).view.read (Elt Ideal) (batch (V m c main_v6) (V m c main_v4) (V m c main_v7)) := by
  show (cfg0.win 3).cut (grid0.coords t) ((dats m 0 c).after 3 t) = _
  rw [after0_3, out_eq, iblk_weights, iblk_bias]
  obtain ⟨-, -, d0, d1, d2, -, -, e0, e1, e2⟩ := idx_facts t
  funext y
  show blockOut _ _ _ y = batch _ _ _ (((cfg0.win 3).blk t).view.emb y)
  unfold blockOut batch
  have hs : (fun z : S1x768x256.Idx => (iblk m c 1 t : Vec Ideal S16x768x256 .bf16) (ix3 (y 0 : Fin 16) (z 1 : Fin 768) (z 2 : Fin 256)))
      = imageOf (V m c main_v4) ((((cfg0.win 3).blk t).view.emb y) 0 : Fin 128) := by
    funext z
    unfold iblk imageOf
    rw [View.read_apply]
    show V m c main_v4 _ = V m c main_v4 _
    congr 1
    funext a
    apply Fin.ext
    match a with
    | ⟨0, _⟩ => show win0_1.index t (0 : Fin 3) * 16 + 1 * (y 0).val = win0_3.index t (0 : Fin 3) * 16 + 1 * (y 0).val; omega
    | ⟨1, _⟩ => show win0_1.index t (1 : Fin 3) * 768 + 1 * (z 1).val = (z 1).val; omega
    | ⟨2, _⟩ => show win0_1.index t (2 : Fin 3) * 256 + 1 * (z 2).val = (z 2).val; omega
  have hi : ix3 (0 : Fin 1) (y 1 : Fin 768) (y 2 : Fin 256)
      = ix3 (0 : Fin 1) ((((cfg0.win 3).blk t).view.emb y) 1 : Fin 768) ((((cfg0.win 3).blk t).view.emb y) 2 : Fin 256) := by
    funext a
    apply Fin.ext
    match a with
    | ⟨0, _⟩ => rfl
    | ⟨1, _⟩ => show (y 1).val = win0_3.index t (1 : Fin 3) * 768 + 1 * (y 1).val; omega
    | ⟨2, _⟩ => show (y 2).val = win0_3.index t (2 : Fin 3) * 256 + 1 * (y 2).val; omega
  exact congr (congrArg (fun s => slabOut (V m c main_v6) s (V m c main_v7)) hs) hi

/-- An index of the output array is in point `t`'s block iff each coordinate is in the block's range on its axis. -/
theorem mem_blk (t : Fin cfg0.N) (i : S128x768x256.Idx) :
    i ∈ ((cfg0.win 3).blk t).view.set ↔ ∀ a : Fin 3, win0_3.index t a * S16x768x256.size a ≤ (i a).val
      ∧ (i a).val < win0_3.index t a * S16x768x256.size a + S16x768x256.size a := by
  show i ∈ ((View.whole main_v8).slice (win0_3.rect t)).set ↔ _
  rw [View.set_slice_whole, Rect.mem_set_unit]
  exact Iff.rfl

/-- Every entry of the output array lies in the block of the point its image number, divided by 16, names. -/
theorem cover (i : S128x768x256.Idx) :
    ∃ t : Fin cfg0.N, (cfg0.win 3).flush t = true ∧ i ∈ ((cfg0.win 3).blk t).view.set := by
  have h0 : (i 0).val < 128 := (i 0).isLt
  have h1 : (i 1).val < 768 := (i 1).isLt
  have h2 : (i 2).val < 256 := (i 2).isLt
  obtain ⟨t, ht⟩ : ∃ t : Fin cfg0.N, t.val = (i 0).val / 16 :=
    ⟨⟨(i 0).val / 16, (show (i 0).val / 16 < 8 by omega).trans_eq N_0.symm⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 768 ≤ (i 1).val ∧ (i 1).val < win0_3.index t (1 : Fin 3) * 768 + 768; omega
  | ⟨2, _⟩ => show win0_3.index t (2 : Fin 3) * 256 ≤ (i 2).val ∧ (i 2).val < win0_3.index t (2 : Fin 3) * 256 + 256; omega

/-- The output array after the run: `batch` of the weight matrix, the padded patches and the bias column the region
    was launched on. -/
theorem final (c : Dev nD) :
    (dats m 0 c).arrAt 3 cfg0.N = batch (V m c main_v6) (V m c main_v4) (V m c main_v7) :=
  (dats m 0 c).arrAt_eq_of_cover 3 _ (fun t _ => flushed_eq m c t) cover

end Cert.KernelIdeal.Region

end
-- ==== Proof.KernelRun.lean ====
/-
  The kernel's run, read: the three arrays its region is launched on as layout steps of the arguments (the roundings
  to a narrower format on the way change nothing over the extended reals), the two host lines after the region, and
  the whole run's result.
-/
import proofs.«180209_g2000007024312984_pallasbulk_809_25_alg».proof.Proof.KernelRegion
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.PatchEmbed StableHlo

variable (m : (ℓ : Loc nD τ sig) → Buf (Elt Ideal) ℓ) (ρ : Dev nD → PrngReg)

/-- The region's first operand is the weights regrouped as a matrix (then rounded: the identity here). -/
theorem weights_eq (c : Dev nD) :
    (V m c main_v6 : S768x768.Idx → EReal) = weights (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results
  rfl

/-- Its third operand is the bias as a column. -/
theorem bias_eq (c : Dev nD) :
    (V m c main_v7 : S768x1.Idx → EReal) = biasCol (m ((c : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results
  rfl

/-- Its second operand is the padded patches of the input (rounded before the padding: the identity here; the
    padding value is the integer zero converted, the real zero in either format). -/
theorem patches_eq (c : Dev nD) :
    (V m c main_v4 : S128x768x256.Idx → EReal) = patches (m ((c : Thread nD τ).loc main_arg0)) := by
  dsimp only [Gen.V, Gen.V0]
  simp only [Gen.hostOps0, Gen.hostOps0_1, Gen.hostOps0_2, List.flatten_cons, List.flatten_nil, List.append_nil,
    List.cons_append, List.nil_append]
  after_results
  rfl

/-- The two host lines after the region cut the padded columns off its output array and regroup the patch
    positions: the program's result is `unpad` of the array. -/
theorem tail_eq (c : Dev nD) :
    Pipeline.afterTail₀ cfgs (dats m) 0 (V0 m) [hostOps1] c main_v10 = unpad ((dats m 0 c).arrAt 3 cfg0.N) := by
  unfold Pipeline.afterTail₀
  show StableHlo.after hostOps1 _ (Proc.devRef .tc main_v10) = _
  after_results
  exact congrArg unpad
    (Pipeline.withArrays_arr spec0 launch0.win.arr_inj c (V0 m c) (fun w => (dats m 0 c).arrAt w cfg0.N) 3)

/-- THE RUN, read: the result is the patch embedding of the arguments, which end unchanged. -/
theorem run : θ_run defs (onTc (τ := τ) (main (F := Ideal))) ⟨m, fun _ => 0, ρ⟩ fun r => ∀ c : Dev nD,
      r.2.mem ((c : Thread nD τ).loc main_v10)
        = answer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v10 (Pipeline.mem_restRefs_of main_v10 (by decide) (by decide))).trans (by
        rw [tail_eq, final, weights_eq, patches_eq, bias_eq]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Region

end
-- ==== Proof.RefRegion.lean ====
/-
  The reference's kernel region: what its output array holds after the run.

  The grid has one point per image. At point `n` the body loads the whole weight matrix, the whole bias column and
  image `n` of the padded patches (a [1, 768, 256] slab), and stores one slab: the per-image map of the three. So the
  slab written back at point `n` is slab `n` of `batch`, the 128 slabs tile the output array, and the array ends
  holding `batch` of the three arrays the region was launched on.
-/
import proofs.«180209_g2000007024312984_pallasbulk_809_25_alg».proof.Proof.Gen.ReferenceIdeal.Frame
import proofs.«180209_g2000007024312984_pallasbulk_809_25_alg».proof.Proof.PatchImage
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Region

open Cert.ReferenceIdeal Cert.ReferenceIdeal.Gen Cert.PatchEmbed

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The body's one store is the per-image map of its three loads. -/
theorem pay_eq (x0 : Vec Ideal S768x768 .f32) (x1 : Vec Ideal S1x768x256 .f32) (x2 : Vec Ideal S768x1 .f32) :
    k0_pay1 x0 x1 x2 = slabOut x0 x1 x2 := by
  unfold k0_pay1 slabOut image
  simp only [shapeCast_self]
  rfl

/-- The grid point as an image number. -/
def img (t : Fin cfg0.N) : Fin 128 := ⟨t.val, t.isLt.trans_eq N_0⟩

/-- Where each window's block sits at point `t`: the weights and the bias whole, the patches and the output at
    image `t`. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The weights' block is the whole matrix. -/
theorem iblk_weights (c : Dev nD) (t : Fin cfg0.N) :
    (iblk m c 0 t : Vec Ideal S768x768 .f32) = V m c main_v4 := by
  obtain ⟨e0, e1, -⟩ := idx_facts t
  funext x
  unfold iblk
  rw [View.read_apply]
  show V m c main_v4 _ = V m c main_v4 x
  congr 1
  funext a
  apply Fin.ext
  match a with
  | ⟨0, _⟩ => show win0_0.index t (0 : Fin 2) * 768 + 1 * (x 0).val = (x 0).val; omega
  | ⟨1, _⟩ => show win0_0.index t (1 : Fin 2) * 768 + 1 * (x 1).val = (x 1).val; omega

/-- The bias's block is the whole column. -/
theorem iblk_bias (c : Dev nD) (t : Fin cfg0.N) :
    (iblk m c 2 t : Vec Ideal S768x1 .f32) = V m c main_v5 := by
  obtain ⟨-, -, -, -, -, e0, e1, -⟩ := idx_facts t
  funext x
  unfold iblk
  rw [View.read_apply]
  show V m c main_v5 _ = V m c main_v5 x
  congr 1
  funext a
  apply Fin.ext
  match a with
  | ⟨0, _⟩ => show win0_2.index t (0 : Fin 2) * 768 + 1 * (x 0).val = (x 0).val; omega
  | ⟨1, _⟩ => show win0_2.index t (1 : Fin 2) * 1 + 1 * (x 1).val = (x 1).val; omega

/-- The patches' block at point `t` is image `t` of the padded patches. -/
theorem iblk_patches (c : Dev nD) (t : Fin cfg0.N) :
    (iblk m c 1 t : Vec Ideal S1x768x256 .f32) = imageOf (V m c main_v3) (img t) := by
  obtain ⟨-, -, e0, e1, e2, -⟩ := idx_facts t
  funext x
  unfold iblk imageOf
  rw [View.read_apply]
  show V m c main_v3 _ = V m c main_v3 _
  congr 1
  funext a
  apply Fin.ext
  have hx : (x 0).val < 1 := (x 0).isLt
  match a with
  | ⟨0, _⟩ => show win0_1.index t (0 : Fin 3) * 1 + 1 * (x 0).val = t.val; omega
  | ⟨1, _⟩ => show win0_1.index t (1 : Fin 3) * 768 + 1 * (x 1).val = (x 1).val; omega
  | ⟨2, _⟩ => show win0_1.index t (2 : Fin 3) * 256 + 1 * (x 2).val = (x 2).val; omega

/-- What point `t` writes back is slab `t` of `batch` of the arrays the region was launched on. -/
theorem flushed_eq (c : Dev nD) (t : Fin cfg0.N) :
    (dats m 0 c).flushed 3 t
      = ((cfg0.win 3).blk t).view.read (Elt Ideal) (batch (V m c main_v4) (V m c main_v3) (V m c main_v5)) := by
  show (cfg0.win 3).cut (grid0.coords t) ((dats m 0 c).after 3 t) = _
  rw [after0_3]
  unfold out0_3
  rw [View.canon_unit_zero zero3]
  simp only [View.ld_unit_zero (S := S768x768) zero2, View.ld_unit_zero (S := S1x768x256) zero3,
    View.ld_unit_zero (S := S768x1) zero2]
  rw [pay_eq, iblk_weights, iblk_patches, iblk_bias]
  obtain ⟨-, -, -, -, -, -, -, e0, e1, e2⟩ := idx_facts t
  funext y
  show slabOut _ _ _ y = batch _ _ _ (((cfg0.win 3).blk t).view.emb y)
  unfold batch
  have hy : (y 0).val < 1 := (y 0).isLt
  have hn : ((((cfg0.win 3).blk t).view.emb y) 0 : Fin 128) = img t :=
    Fin.ext (by show win0_3.index t (0 : Fin 3) * 1 + 1 * (y 0).val = t.val; omega)
  have hi : ix3 (0 : Fin 1) ((((cfg0.win 3).blk t).view.emb y) 1 : Fin 768) ((((cfg0.win 3).blk t).view.emb y) 2 : Fin 256) = y := by
    funext a
    apply Fin.ext
    match a with
    | ⟨0, _⟩ => show 0 = (y 0).val; omega
    | ⟨1, _⟩ => show win0_3.index t (1 : Fin 3) * 768 + 1 * (y 1).val = (y 1).val; omega
    | ⟨2, _⟩ => show win0_3.index t (2 : Fin 3) * 256 + 1 * (y 2).val = (y 2).val; omega
  exact (congr (congrArg (fun n => slabOut (V m c main_v4) (imageOf (V m c main_v3) n) (V m c main_v5)) hn) hi).symm

/-- An index of the output array is in point `t`'s slab iff each coordinate is in the slab's range on its axis. -/
theorem mem_blk (t : Fin cfg0.N) (i : S128x768x256.Idx) :
    i ∈ ((cfg0.win 3).blk t).view.set ↔ ∀ a : Fin 3, win0_3.index t a * S1x768x256.size a ≤ (i a).val
      ∧ (i a).val < win0_3.index t a * S1x768x256.size a + S1x768x256.size a := by
  show i ∈ ((View.whole main_v6).slice (win0_3.rect t)).set ↔ _
  rw [View.set_slice_whole, Rect.mem_set_unit]
  exact Iff.rfl

/-- Every entry of the output array lies in the slab of the point its image number names. -/
theorem cover (i : S128x768x256.Idx) :
    ∃ t : Fin cfg0.N, (cfg0.win 3).flush t = true ∧ i ∈ ((cfg0.win 3).blk t).view.set := by
  have h0 : (i 0).val < 128 := (i 0).isLt
  have h1 : (i 1).val < 768 := (i 1).isLt
  have h2 : (i 2).val < 256 := (i 2).isLt
  obtain ⟨t, ht⟩ : ∃ t : Fin cfg0.N, t.val = (i 0).val := ⟨⟨(i 0).val, h0.trans_eq N_0.symm⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 768 ≤ (i 1).val ∧ (i 1).val < win0_3.index t (1 : Fin 3) * 768 + 768; omega
  | ⟨2, _⟩ => show win0_3.index t (2 : Fin 3) * 256 ≤ (i 2).val ∧ (i 2).val < win0_3.index t (2 : Fin 3) * 256 + 256; omega

/-- The output array after the run: `batch` of the weight matrix, the padded patches and the bias column the region
    was launched on. -/
theorem final (c : Dev nD) :
    (dats m 0 c).arrAt 3 cfg0.N = batch (V m c main_v4) (V m c main_v3) (V m c main_v5) :=
  (dats m 0 c).arrAt_eq_of_cover 3 _ (fun t _ => flushed_eq m c t) cover

end Cert.ReferenceIdeal.Region

end
-- ==== Proof.RefRun.lean ====
/-
  The reference's run, read: the three arrays its kernel region is launched on as layout steps of the arguments, the
  two host lines after the region, and the whole run's result.
-/
import proofs.«180209_g2000007024312984_pallasbulk_809_25_alg».proof.Proof.RefRegion
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Region

open Cert.ReferenceIdeal Cert.ReferenceIdeal.Gen Cert.PatchEmbed StableHlo

variable (m : (ℓ : Loc nD τ sig) → Buf (Elt Ideal) ℓ) (ρ : Dev nD → PrngReg)

/-- The region's first operand is the weights regrouped as a matrix. -/
theorem weights_eq (c : Dev nD) :
    (V m c main_v4 : S768x768.Idx → EReal) = weights (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results
  rfl

/-- Its third operand is the bias as a column. -/
theorem bias_eq (c : Dev nD) :
    (V m c main_v5 : S768x1.Idx → EReal) = biasCol (m ((c : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results
  rfl

/-- Its second operand is the padded patches of the input. -/
theorem patches_eq (c : Dev nD) :
    (V m c main_v3 : S128x768x256.Idx → EReal) = patches (m ((c : Thread nD τ).loc main_arg0)) := by
  dsimp only [Gen.V, Gen.V0]
  simp only [Gen.hostOps0, Gen.hostOps0_1, Gen.hostOps0_2, List.flatten_cons, List.flatten_nil, List.append_nil,
    List.cons_append, List.nil_append]
  after_results
  rfl

/-- The two host lines after the region cut the padded columns off its output array and regroup the patch
    positions: the program's result is `unpad` of the array. -/
theorem tail_eq (c : Dev nD) :
    Pipeline.afterTail₀ cfgs (dats m) 0 (V0 m) [hostOps1] c main_v8 = unpad ((dats m 0 c).arrAt 3 cfg0.N) := by
  unfold Pipeline.afterTail₀
  show StableHlo.after hostOps1 _ (Proc.devRef .tc main_v8) = _
  after_results
  exact congrArg unpad
    (Pipeline.withArrays_arr spec0 launch0.win.arr_inj c (V0 m c) (fun w => (dats m 0 c).arrAt w cfg0.N) 3)

/-- THE RUN, read: the result is the patch embedding of the arguments, which end unchanged. -/
theorem run : θ_run defs (onTc (τ := τ) (main (F := Ideal))) ⟨m, fun _ => 0, ρ⟩ fun r => ∀ c : Dev nD,
      r.2.mem ((c : Thread nD τ).loc main_v8)
        = answer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v8 (Pipeline.mem_restRefs_of main_v8 (by decide) (by decide))).trans (by
        rw [tail_eq, final, weights_eq, patches_eq, bias_eq]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Region

end
-- ==== Proof.lean ====
/-
  The kernel and its reference both compute a 16×16, stride-16 convolution with bias and a clamp at zero (a patch
  embedding) of a [128, 3, 224, 224] batch, as one [768, 768] × [768, 256] matrix product per image over patches
  padded from 196 to 256 positions. They differ in how the work is cut — the kernel takes 16 images per grid point and
  sixteen products per body, the reference one image per point — and in the kernel rounding its two matrix operands to
  a narrower format first. Over the extended reals a rounding is the identity and a product does not depend on how
  the batch is cut, so both results are `Cert.PatchEmbed.answer` of the arguments: no property of the inputs is used.

  `PatchImage` states that function; `KernelRegion` / `RefRegion` show each program's region leaves `batch` of the arrays
  it is launched on in its output array; `KernelRun` / `RefRun` read the host lines before and after the region and give
  each program's whole run. The three frames are the generated ones; the idealization rewrote nothing, so `preserves`
  has nothing to state.
-/
import proofs.«180209_g2000007024312984_pallasbulk_809_25_alg».proof.Defs
import proofs.«180209_g2000007024312984_pallasbulk_809_25_alg».proof.Proof.Gen.Kernel
import proofs.«180209_g2000007024312984_pallasbulk_809_25_alg».proof.Proof.Gen.Kernel.Frame
import proofs.«180209_g2000007024312984_pallasbulk_809_25_alg».proof.Proof.Gen.KernelIdeal
import proofs.«180209_g2000007024312984_pallasbulk_809_25_alg».proof.Proof.Gen.KernelIdeal.Frame
import proofs.«180209_g2000007024312984_pallasbulk_809_25_alg».proof.Proof.Gen.ReferenceIdeal
import proofs.«180209_g2000007024312984_pallasbulk_809_25_alg».proof.Proof.Gen.ReferenceIdeal.Frame
import proofs.«180209_g2000007024312984_pallasbulk_809_25_alg».proof.Proof.Gen.Pre_finite_inputs
import proofs.«180209_g2000007024312984_pallasbulk_809_25_alg».proof.Proof.KernelRun
import proofs.«180209_g2000007024312984_pallasbulk_809_25_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- From memories that agree on the three arguments both programs end with the patch embedding of those arguments as
    their result, and with the arguments unchanged. -/
theorem algebraic : Cert.algebraic_KernelIdeal_ReferenceIdeal := by
  intro m ρ m' ρ' _ hagree
  refine ⟨fun c => Cert.PatchEmbed.answer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Region.run m ρ, ?_⟩
  refine (θ_run Cert.ReferenceIdeal.defs _ _).mono (fun _ h c => ?_) (Cert.ReferenceIdeal.Region.run m' ρ')
  obtain ⟨a0, a1, a2⟩ := hagree c
  refine ⟨(h c).1.trans ?_, (h c).2⟩
  rw [a0, a1, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
